-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x2048 : Shape := ⟨3, ![8, 2048, 2048]⟩
abbrev S128x256 : Shape := ⟨2, ![128, 256]⟩
abbrev S128 : Shape := ⟨1, ![128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8x2048x128 .f32) (main_arg1 : FVec F S8x2048x2048 .f32) (main_arg2 : FVec F S8x2048x2048 .f32) (main_arg3 : FVec F S128x256 .f32) (main_arg4 : FVec F S128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S8x2048x128 : Shape := ⟨3, ![8, 2048, 128]⟩
abbrev S8x2048x2048 : Shape := ⟨3, ![8, 2048, 2048]⟩
abbrev S128x256 : Shape := ⟨2, ![128, 256]⟩
abbrev S128 : Shape := ⟨1, ![128]⟩
abbrev S256x128 : Shape := ⟨2, ![256, 128]⟩
abbrev S1x128 : Shape := ⟨2, ![1, 128]⟩
abbrev S1x1024x2048 : Shape := ⟨3, ![1, 1024, 2048]⟩
abbrev S1x2048x1024 : Shape := ⟨3, ![1, 2048, 1024]⟩
abbrev S1x2048x128 : Shape := ⟨3, ![1, 2048, 128]⟩
abbrev S1x1024x128 : Shape := ⟨3, ![1, 1024, 128]⟩
abbrev S1024x2048 : Shape := ⟨2, ![1024, 2048]⟩
abbrev S2048x1024 : Shape := ⟨2, ![2048, 1024]⟩
abbrev S2048x128 : Shape := ⟨2, ![2048, 128]⟩
abbrev S1024x128 : Shape := ⟨2, ![1024, 128]⟩
abbrev S1024 : Shape := ⟨1, ![1024]⟩
abbrev S1024x1 : Shape := ⟨2, ![1024, 1]⟩
abbrev S1024x256 : Shape := ⟨2, ![1024, 256]⟩

abbrev nBuf : Space → Nat
  | .hbm => 8
  | .vmem => 12
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S8x2048x2048, .f32⟩
  | .hbm, ⟨3, _⟩ => ⟨S128x256, .f32⟩
  | .hbm, ⟨4, _⟩ => ⟨S128, .f32⟩
  | .hbm, ⟨5, _⟩ => ⟨S256x128, .f32⟩
  | .hbm, ⟨6, _⟩ => ⟨S1x128, .f32⟩
  | .hbm, ⟨7, _⟩ => ⟨S8x2048x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x128, .f32⟩
  | .local _ .vmem, ⟨7, _⟩ => ⟨S1x1024x128, .f32⟩
  | .local _ .vmem, ⟨8, _⟩ => ⟨S256x128, .f32⟩
  | .local _ .vmem, ⟨9, _⟩ => ⟨S1x128, .f32⟩
  | .local _ .vmem, ⟨10, _⟩ => ⟨S1x1024x128, .f32⟩
  | .local _ .vmem, ⟨11, _⟩ => ⟨S1x1024x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S128x256_S256x128_1_0 : S128x256.Transposes [1, 0] S256x128
  shapeCasts_S128_S1x128 : S128.ShapeCasts S1x128
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x2048_S1024 : S1024x2048.Reduces [1] S1024
  shapeCasts_S1024_S1024x1 : S1024.ShapeCasts S1024x1
  bitsLt_bf16_f32 : FTy.bits .bf16 < FTy.bits .f32
  broadcasts_S1024x1_S1024x128 : S1024x1.Broadcasts S1024x128
  concatenates_S1024x128_S1024x128_S1024x256_d1 : Shape.Concatenates [S1024x128, S1024x128] S1024x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S1024x128_S1x1024x128 : S1024x128.ShapeCasts S1x1024x128
  dot_S2048x1024_S2048x128_S1024x128_0_0_1_1_n_n_wf : DotDims.WF S2048x1024 S2048x128 S1024x128 [0] [0] [1] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x2048x2048.size a
  hwx0_0 : ∀ i : grid0.Coords, EltTy.bits .f32 = 32 ∨ (Rect.block (s := S8x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x2048.size a
  hwx0_1 : ∀ i : grid0.Coords, EltTy.bits .f32 = 32 ∨ (Rect.block (s := S8x2048x2048) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x128.size a
  hwx0_2 : ∀ i : grid0.Coords, EltTy.bits .f32 = 32 ∨ (Rect.block (s := S8x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S8x2048x128.size a
  hwx0_3 : ∀ i : grid0.Coords, EltTy.bits .f32 = 32 ∨ (Rect.block (s := S8x2048x128) S1x1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x128.size a ≤ S8x2048x128.size a
  hwx0_6 : ∀ i : grid0.Coords, EltTy.bits .f32 = 32 ∨ (Rect.block (s := S8x2048x128) S1x1024x128.size (cc0_transform_6 i) (hinb0_6 i)).WholeWords (EltTy.packing .f32)

variable [Facts₀]

def dot_S2048x1024_S2048x128_S1024x128_0_0_1_1_n_n : DotDims S2048x1024 S2048x128 S1024x128 where
  lhsContracting := [0]
  rhsContracting := [0]
  lhsNonContracting := [1]
  rhsNonContracting := [1]
  lhsBatch := []
  rhsBatch := []
  wf := dot_S2048x1024_S2048x128_S1024x128_0_0_1_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg1) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S128x256 : Shape := ⟨2, ![128, 256]⟩
abbrev S128 : Shape := ⟨1, ![128]⟩
abbrev S_ : Shape := ⟨0, ![]⟩
abbrev S8x2048 : Shape := ⟨2, ![8, 2048]⟩
abbrev S8x2048x1 : Shape := ⟨3, ![8, 2048, 1]⟩
abbrev S8x2048x256 : Shape := ⟨3, ![8, 2048, 256]⟩
abbrev S1x1x128 : Shape := ⟨3, ![1, 1, 128]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S8x2048x2048, .f32⟩
  | .hbm, ⟨3, _⟩ => ⟨S128x256, .f32⟩
  | .hbm, ⟨4, _⟩ => ⟨S128, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S8x2048x128, .f32⟩
  | .hbm, ⟨9, _⟩ => ⟨S8x2048x128, .f32⟩
  | .hbm, ⟨10, _⟩ => ⟨S8x2048x128, .f32⟩
  | .hbm, ⟨11, _⟩ => ⟨S8x2048x256, .f32⟩
  | .hbm, ⟨12, _⟩ => ⟨S8x2048x128, .f32⟩
  | .hbm, ⟨13, _⟩ => ⟨S1x1x128, .f32⟩
  | .hbm, ⟨14, _⟩ => ⟨S8x2048x128, .f32⟩
  | .hbm, ⟨15, _⟩ => ⟨S8x2048x128, .f32⟩
  | .hbm, ⟨16, _⟩ => ⟨S_, .f32⟩
  | .hbm, ⟨17, _⟩ => ⟨S8x2048x128, .f32⟩
  | .hbm, ⟨18, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S8x2048x1_S8x2048x128_0_1_2 : S8x2048x1.BroadcastsInDim S8x2048x128 (![0, 1, 2] : Fin 3 → Fin S8x2048x128.rank)
  concatenates_S8x2048x128_S8x2048x128_S8x2048x256_d2 : Shape.Concatenates [S8x2048x128, S8x2048x128] S8x2048x256 2
  bcast_S128_S1x1x128_2 : S128.BroadcastsInDim S1x1x128 (![2] : Fin 1 → Fin S1x1x128.rank)
  bcast_S1x1x128_S8x2048x128_0_1_2 : S1x1x128.BroadcastsInDim S8x2048x128 (![0, 1, 2] : Fin 3 → Fin S8x2048x128.rank)
  bcast_S_S8x2048x128 : S_.BroadcastsInDim S8x2048x128 (![] : Fin 0 → Fin S8x2048x128.rank)
  dot_S8x2048x2048_S8x2048x128_S8x2048x128_1_1_2_2_0_0_wf : DotDims.WF S8x2048x2048 S8x2048x128 S8x2048x128 [1] [1] [2] [2] [0] [0]
  dot_S8x2048x256_S128x256_S8x2048x128_2_1_01_0_n_n_wf : DotDims.WF S8x2048x256 S128x256 S8x2048x128 [2] [1] [0, 1] [0] [] []

variable [Facts₀]

def dot_S8x2048x2048_S8x2048x128_S8x2048x128_1_1_2_2_0_0 : DotDims S8x2048x2048 S8x2048x128 S8x2048x128 where
  lhsContracting := [1]
  rhsContracting := [1]
  lhsNonContracting := [2]
  rhsNonContracting := [2]
  lhsBatch := [0]
  rhsBatch := [0]
  wf := dot_S8x2048x2048_S8x2048x128_S8x2048x128_1_1_2_2_0_0_wf
def dot_S8x2048x256_S128x256_S8x2048x128_2_1_01_0_n_n : DotDims S8x2048x256 S128x256 S8x2048x128 where
  lhsContracting := [2]
  rhsContracting := [1]
  lhsNonContracting := [0, 1]
  rhsNonContracting := [0]
  lhsBatch := []
  rhsBatch := []
  wf := dot_S8x2048x256_S128x256_S8x2048x128_2_1_01_0_n_n_wf

class Facts : Prop extends Facts₀ where

variable [Facts]
-- ==== Proof.LibFrameShared.lean ====
/-
  The frame run of a one-region pipeline program whose windows may SHARE an array (one argument handed to the
  kernel through several input windows), for a body that keeps nothing between grid points.

  When every window has an array of its own the launch holds each array whole at the full share. When two input
  windows read one array, the array's one full share has to be dealt between them: the proof data names each
  input window's share (`Dat.q`), and the certificate shows how the distinct buffers behind the arrays, each
  whole at the full share at the region-entry contents, make the proof data's arrays at entry (`hsplit`).
  Everything else is as for distinct arrays: the body obligation at every point, the program's shape up to the
  region, and an invariant that is only the core's scoped buffers which are no staging buffer. The run ends with
  every window's array at what the write-backs of the proof data leave (`Dat.arrAt … N`) and every unscoped
  buffer that is no window's array as the region found it.
-/
import Idealize.ShloMosaic.Lib.Pipeline.Frame

noncomputable section

namespace Cert.FrameShared

open Idealize.ShloMosaic Idealize.ShloMosaic.Pipeline Idealize.ShloMosaic.Rounds
open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

include hinj hw in
/-- The frame run when windows may share arrays: from any memory with zero counters every weakly fair execution of
    @main terminates, each window's array ends at the proof data's `arrAt w N`, and every other unscoped buffer ends
    as the region found it (`V`). The invariant is the scoped rest alone (`hΦ`): the body carries nothing. -/
theorem θ_run_frame_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t
      = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g)
      (FramePost cfgs dats p V) :=
  θ_run_region_noSem_shared cfgs dats () hinj p hw emb₁ defs₀ 𝒱₀ m g main hbody hne harr hstage howed
    (initOf (cells cfgs hinj) (launchToks cfgs hinj)) .rfl V hmain hsplit
    (fun _ => iprop(emp)) (fun _ => iprop(emp)) (fun c => unscopedRest (cfgs p).spec c (V c))
    (hX := fun c => by
      iintro H
      isplitr; · iempintro
      iexact H)
    (hin := fun c => by
      rw [hΦ]
      iintro ⟨-, H⟩
      iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.FrameShared

end
-- ==== Proof.KBody.lean ====
/-
  The frame of the message-passing kernel's one region, at any float instance: every weakly fair execution of the
  program terminates without a fault and leaves the five argument arrays as they were, and the result array ends at
  what the sixteen write-backs of the output window leave in it.

  The region has seven windows. Six are fetched: a [1, 1024, 2048] block of the adjacency array, a [1, 2048, 1024]
  block of the cost array, the whole [1, 2048, 128] batch slice of the embeddings, the [1, 1024, 128] row slice of
  the SAME embeddings array, the transposed weight and the bias row (both written by host operations before the
  region). One is written back: the [1, 1024, 128] block of the result. Because two windows read one array, the
  array's full share is dealt between them, the left half to the batch-slice window and the right half to the
  row-slice window; neither window is ever written back, so half a share each is enough.

  The body loads the six input blocks whole, computes one value from them (the payload of its one store) and stores
  it over the whole output block; it keeps nothing between grid points.
-/
import proofs.«150982_j23665269801224_1_alg».proof.Proof.Gen.Kernel.Launch
import proofs.«150982_j23665269801224_1_alg».proof.Proof.Gen.Kernel.Skeleton
import proofs.«150982_j23665269801224_1_alg».proof.Proof.Gen.Kernel.Points
import proofs.«150982_j23665269801224_1_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers as the region finds them: the launch contents after the two host operations (the transpose of the
    weight and the reshape of the bias). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the two host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Neither host operation writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Neither host operation writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Neither host operation writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Neither host operation writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof
    data whose array is the region-entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the store take the whole staging block -/
abbrev rect0 : Rect S1x1024x2048 := Rect.unit (s := S1x1024x2048) ![0, 0, 0] S1x1024x2048.size inb_S1x1024x2048_S1x1024x2048_0_0_0
abbrev rect1 : Rect S1x2048x1024 := Rect.unit (s := S1x2048x1024) ![0, 0, 0] S1x2048x1024.size inb_S1x2048x1024_S1x2048x1024_0_0_0
abbrev rect2 : Rect S1x2048x128 := Rect.unit (s := S1x2048x128) ![0, 0, 0] S1x2048x128.size inb_S1x2048x128_S1x2048x128_0_0_0
abbrev rect3 : Rect S1x1024x128 := Rect.unit (s := S1x1024x128) ![0, 0, 0] S1x1024x128.size inb_S1x1024x128_S1x1024x128_0_0_0
abbrev rect4 : Rect S256x128 := Rect.unit (s := S256x128) ![0, 0] S256x128.size inb_S256x128_S256x128_0_0
abbrev rect5 : Rect S1x128 := Rect.unit (s := S1x128) ![0, 0] S1x128.size inb_S1x128_S1x128_0_0
abbrev rect6 : Rect S1x1024x128 := Rect.unit (s := S1x1024x128) ![0, 0, 0] S1x1024x128.size inb_S1x1024x128_S1x1024x128_0_0_0

/-- What the body leaves in the output window's staging buffer, from the six input blocks: its one store, the
    payload of the six loads, over the whole block. -/
def outBlock (x0 : Vec F S1x1024x2048 .f32) (x1 : Vec F S1x2048x1024 .f32) (x2 : Vec F S1x2048x128 .f32) (x3 : Vec F S1x1024x128 .f32)
    (x4 : Vec F S256x128 .f32) (x5 : Vec F S1x128 .f32) : Vec F S1x1024x128 .f32 :=
  View.canon [⟨rect6, k0_pay1 (View.ld x0 rect0) (View.ld x1 rect1) (View.ld x2 rect2) (View.ld x3 rect3) (View.ld x4 rect4) (View.ld x5 rect5)⟩]

/-- The one store covers the block. -/
theorem outCover (p0 : Vec F S1x1024x128 .f32) (y : S1x1024x128.Idx) :
    ∃ pc ∈ ([⟨rect6, p0⟩] : List (View.Piece (Elt F) S1x1024x128 .f32)), y ∈ pc.1.set :=
  View.cover_of_tiled [⟨rect6, p0⟩] S1x1024x128.size (by rfl) y

/-! ## The body's triple -/

set_option maxHeartbeats 1000000 in
/-- The body on whole staging memrefs, the inputs' at contents `xW` and the output's at anything, runs to the
    continuation with the inputs' as they were and the output's at `outBlock` of them. -/
theorem sound_kernel (c : Dev nD) (E : Set ℕ) (i : grid0.Coords)
    (arg2 : Memref sig .tc .vmem S1x1024x2048 .f32) (harg2 : arg2.IsWhole) (arg3 : Memref sig .tc .vmem S1x2048x1024 .f32) (harg3 : arg3.IsWhole)
    (arg4 : Memref sig .tc .vmem S1x2048x128 .f32) (harg4 : arg4.IsWhole) (arg5 : Memref sig .tc .vmem S1x1024x128 .f32) (harg5 : arg5.IsWhole)
    (arg6 : Memref sig .tc .vmem S256x128 .f32) (harg6 : arg6.IsWhole) (arg7 : Memref sig .tc .vmem S1x128 .f32) (harg7 : arg7.IsWhole)
    (arg8 : Memref sig .tc .vmem S1x1024x128 .f32) (harg8 : arg8.IsWhole)
    (x0 : Vec F S1x1024x2048 .f32) (x1 : Vec F S1x2048x1024 .f32) (x2 : Vec F S1x2048x128 .f32) (x3 : Vec F S1x1024x128 .f32)
    (x4 : Vec F S256x128 .f32) (x5 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (outBlock x0 x1 x2 x3 x4 x5)) -∗ K ⟨⟩))
      ⊢ wp frame (wpE (defs₀ (F := F)) Variants.none c none) E (cc0__gnn_kernel i arg2 harg2 arg3 harg3 arg4 harg4 arg5 harg5 arg6 harg6 arg7 harg7 arg8 harg8) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _)

end Cert.Kernel.Hand

end
-- ==== Proof.KFrame.lean ====
/-
  The message-passing kernel's region, continued: the proof data of its pipeline (what each window's staging buffer
  holds after the body at each grid point), the body obligation at every point, how the launch's buffers make the
  proof data's arrays at entry when the embeddings array is read through two windows, the run, and the frame.
-/
import proofs.«150982_j23665269801224_1_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data on core `c`: the arrays as the region finds them; after the body at point `t` each input's
    buffer at its block and the output's at `outBlock` of the input blocks; the invariant the core's scoped buffers
    that are no staging buffer; nothing owed; the embeddings array's share dealt between its two windows, every
    other input array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's dues pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The arrays at entry: the embeddings' share dealt between its two windows -/

/-- The six distinct buffers behind the seven windows' arrays. -/
theorem arrImage : Finset.univ.image (Pipeline.arrRef spec0)
    = ([main_arg1, main_arg2, main_arg0, main_v0, main_v1, main_v2] : List (Ref sig .tc)).toFinset := by decide

section Split

variable (c : Dev nD) (W : (b : Ref sig .tc) → Buf (Elt F) ((c.tc : Thread nD τ).loc b))
  (dat : Dat τ (Elt F) Unit ℕ (UR sig nD τ) ℕ cfg0 c)

/-- The buffers behind the arrays, one by one. -/
theorem arrBufs_eq :
    (Pipeline.arrBufs spec0 c W : sProp 𝕄)
      = iprop((((c.tc : Thread nD τ).loc main_arg1) ↦{fullShare} W main_arg1) ∗ (((c.tc : Thread nD τ).loc main_arg2) ↦{fullShare} W main_arg2)
          ∗ (((c.tc : Thread nD τ).loc main_arg0) ↦{fullShare} W main_arg0) ∗ (((c.tc : Thread nD τ).loc main_v0) ↦{fullShare} W main_v0)
          ∗ (((c.tc : Thread nD τ).loc main_v1) ↦{fullShare} W main_v1) ∗ (((c.tc : Thread nD τ).loc main_v2) ↦{fullShare} W main_v2)) := by
  unfold Pipeline.arrBufs
  rw [bigSep_eq_bigSepL_of_eq _ arrImage (by decide)]
  rfl

/-- A window's array at entry, at the window's share, is its buffer `b` whole at the entry contents. -/
theorem arr_at (hA : ∀ w, dat.A w = W (Pipeline.arrRef spec0 w)) (w : Fin cfg0.W) (b : Ref sig .tc)
    (hb : Pipeline.arrRef spec0 w = b) :
    (((cfg0.win w).arr.view.loc (c.tc : Thread nD τ)) ↦[(cfg0.win w).arr.view.set]{dat.share w} dat.arrAt w 0 : sProp 𝕄)
      = (((c.tc : Thread nD τ).loc b) ↦{dat.share w} W b) := by
  subst hb
  rw [(arr_whole0 w).set_eq_univ]
  show (_ ↦{_} dat.A w : sProp 𝕄) = _
  rw [hA]

omit [FloatOps F] in
theorem sep_congr {P P' Q Q' : sProp 𝕄} (h : P = P') (h' : Q = Q') : (iprop(P ∗ Q) : sProp 𝕄) = iprop(P' ∗ Q') := by
  rw [h, h']

/-- The proof data's arrays at entry, one by one. -/
theorem arrays_eq (hA : ∀ w, dat.A w = W (Pipeline.arrRef spec0 w)) :
    dat.arrays (dat.arrAt · 0)
      = iprop((((c.tc : Thread nD τ).loc main_arg1) ↦{dat.share 0} W main_arg1) ∗ (((c.tc : Thread nD τ).loc main_arg2) ↦{dat.share 1} W main_arg2)
          ∗ (((c.tc : Thread nD τ).loc main_arg0) ↦{dat.share 2} W main_arg0) ∗ (((c.tc : Thread nD τ).loc main_arg0) ↦{dat.share 3} W main_arg0)
          ∗ (((c.tc : Thread nD τ).loc main_v0) ↦{dat.share 4} W main_v0) ∗ (((c.tc : Thread nD τ).loc main_v1) ↦{dat.share 5} W main_v1)
          ∗ (((c.tc : Thread nD τ).loc main_v2) ↦{dat.share 6} W main_v2)) := by
  unfold Dat.arrays
  rw [bigSep_W0]
  exact sep_congr (arr_at c W dat hA 0 main_arg1 rfl) (sep_congr (arr_at c W dat hA 1 main_arg2 rfl) (sep_congr (arr_at c W dat hA 2 main_arg0 rfl)
    (sep_congr (arr_at c W dat hA 3 main_arg0 rfl) (sep_congr (arr_at c W dat hA 4 main_v0 rfl) (sep_congr (arr_at c W dat hA 5 main_v1 rfl)
      (arr_at c W dat hA 6 main_v2 rfl))))))

/-- The buffers behind the arrays, each whole at the full share, make the proof data's arrays at entry, for any
    proof data that holds the embeddings' two windows at the two halves of the full share and every other input
    window whole: five buffers are a window's own; the embeddings' is split along its share. -/
theorem split_gen (hA : ∀ w, dat.A w = W (Pipeline.arrRef spec0 w))
    (h0 : dat.q 0 = fullShare) (h1 : dat.q 1 = fullShare) (h2 : dat.q 2 = fullShare.left) (h3 : dat.q 3 = fullShare.right)
    (h4 : dat.q 4 = fullShare) (h5 : dat.q 5 = fullShare) :
    (Pipeline.arrBufs spec0 c W : sProp 𝕄) ⊢ dat.arrays (dat.arrAt · 0) := by
  have s0 : dat.share 0 = fullShare := by unfold Dat.share; rw [if_neg (show ¬ ((cfg0.win 0).isOut = true) by decide), h0]
  have s1 : dat.share 1 = fullShare := by unfold Dat.share; rw [if_neg (show ¬ ((cfg0.win 1).isOut = true) by decide), h1]
  have s2 : dat.share 2 = fullShare.left := by unfold Dat.share; rw [if_neg (show ¬ ((cfg0.win 2).isOut = true) by decide), h2]
  have s3 : dat.share 3 = fullShare.right := by unfold Dat.share; rw [if_neg (show ¬ ((cfg0.win 3).isOut = true) by decide), h3]
  have s4 : dat.share 4 = fullShare := by unfold Dat.share; rw [if_neg (show ¬ ((cfg0.win 4).isOut = true) by decide), h4]
  have s5 : dat.share 5 = fullShare := by unfold Dat.share; rw [if_neg (show ¬ ((cfg0.win 5).isOut = true) by decide), h5]
  have s6 : dat.share 6 = fullShare := by unfold Dat.share; rw [if_pos (show (cfg0.win 6).isOut = true by decide)]
  rw [arrBufs_eq, arrays_eq c W dat hA, s0, s1, s2, s3, s4, s5, s6]
  iintro ⟨H1, H2, H0, Hv0, Hv1, Hv2⟩
  ihave H0' := (pointsTo_share (PosShare.mem_left_op_right fullShare)).1 $$ H0
  icases H0' with ⟨H0l, H0r⟩
  isplitl [H1]; · iexact H1
  isplitl [H2]; · iexact H2
  isplitl [H0l]; · iexact H0l
  isplitl [H0r]; · iexact H0r
  isplitl [Hv0]; · iexact Hv0
  isplitl [Hv1]; · iexact Hv1
  iexact Hv2

end Split

theorem hsplit (c : Dev nD) :
    (Pipeline.arrBufs spec0 c (V m c) : sProp 𝕄) ⊢ (dats m 0 c).arrays ((dats m 0 c).arrAt · 0) :=
  split_gen c (V m c) (dats m 0 c) (A_eq m c) (by dsimp only [dats]) (by dsimp only [dats]) (by dsimp only [dats])
    (by dsimp only [dats]) (by dsimp only [dats]) (by dsimp only [dats])

/-! ## The run and the frame -/

set_option backward.isDefEq.respectTransparency.types false in
/-- From any memory with zero counters every weakly fair execution of @main terminates; every window's array ends
    at what the proof data's write-backs leave, every other unscoped buffer as the region found it. -/
theorem run_main : θ_run defs (onTc (τ := τ) (main (F := F))) (s₀ m ρ) (Pipeline.FramePost cfgs (dats m) 0 (V m)) :=
  Cert.FrameShared.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- The five argument arrays end unchanged: three are input windows' arrays, which no write-back touches, and two
    (the weight and the bias) are read by the host operations only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (Pipeline.mem_restRefs_of main_arg3 rfl (by decide))).trans (V_main_arg3 m c),
      ((h c).2 main_arg4 (Pipeline.mem_restRefs_of main_arg4 rfl (by decide))).trans (V_main_arg4 m c)⟩) (run_main m ρ)

end Cert.Kernel.Hand

end
-- ==== Proof.KIBody.lean ====
/-
  The frame of the message-passing kernel's one region, at any float instance: every weakly fair execution of the
  program terminates without a fault and leaves the five argument arrays as they were, and the result array ends at
  what the sixteen write-backs of the output window leave in it.

  The region has seven windows. Six are fetched: a [1, 1024, 2048] block of the adjacency array, a [1, 2048, 1024]
  block of the cost array, the whole [1, 2048, 128] batch slice of the embeddings, the [1, 1024, 128] row slice of
  the SAME embeddings array, the transposed weight and the bias row (both written by host operations before the
  region). One is written back: the [1, 1024, 128] block of the result. Because two windows read one array, the
  array's full share is dealt between them, the left half to the batch-slice window and the right half to the
  row-slice window; neither window is ever written back, so half a share each is enough.

  The body loads the six input blocks whole, computes one value from them (the payload of its one store) and stores
  it over the whole output block; it keeps nothing between grid points.
-/
import proofs.«150982_j23665269801224_1_alg».proof.Proof.Gen.KernelIdeal.Launch
import proofs.«150982_j23665269801224_1_alg».proof.Proof.Gen.KernelIdeal.Skeleton
import proofs.«150982_j23665269801224_1_alg».proof.Proof.Gen.KernelIdeal.Points
import proofs.«150982_j23665269801224_1_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers as the region finds them: the launch contents after the two host operations (the transpose of the
    weight and the reshape of the bias). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the two host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Neither host operation writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Neither host operation writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Neither host operation writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Neither host operation writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof
    data whose array is the region-entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the store take the whole staging block -/
abbrev rect0 : Rect S1x1024x2048 := Rect.unit (s := S1x1024x2048) ![0, 0, 0] S1x1024x2048.size inb_S1x1024x2048_S1x1024x2048_0_0_0
abbrev rect1 : Rect S1x2048x1024 := Rect.unit (s := S1x2048x1024) ![0, 0, 0] S1x2048x1024.size inb_S1x2048x1024_S1x2048x1024_0_0_0
abbrev rect2 : Rect S1x2048x128 := Rect.unit (s := S1x2048x128) ![0, 0, 0] S1x2048x128.size inb_S1x2048x128_S1x2048x128_0_0_0
abbrev rect3 : Rect S1x1024x128 := Rect.unit (s := S1x1024x128) ![0, 0, 0] S1x1024x128.size inb_S1x1024x128_S1x1024x128_0_0_0
abbrev rect4 : Rect S256x128 := Rect.unit (s := S256x128) ![0, 0] S256x128.size inb_S256x128_S256x128_0_0
abbrev rect5 : Rect S1x128 := Rect.unit (s := S1x128) ![0, 0] S1x128.size inb_S1x128_S1x128_0_0
abbrev rect6 : Rect S1x1024x128 := Rect.unit (s := S1x1024x128) ![0, 0, 0] S1x1024x128.size inb_S1x1024x128_S1x1024x128_0_0_0

/-- What the body leaves in the output window's staging buffer, from the six input blocks: its one store, the
    payload of the six loads, over the whole block. -/
def outBlock (x0 : Vec F S1x1024x2048 .f32) (x1 : Vec F S1x2048x1024 .f32) (x2 : Vec F S1x2048x128 .f32) (x3 : Vec F S1x1024x128 .f32)
    (x4 : Vec F S256x128 .f32) (x5 : Vec F S1x128 .f32) : Vec F S1x1024x128 .f32 :=
  View.canon [⟨rect6, k0_pay1 (View.ld x0 rect0) (View.ld x1 rect1) (View.ld x2 rect2) (View.ld x3 rect3) (View.ld x4 rect4) (View.ld x5 rect5)⟩]

/-- The one store covers the block. -/
theorem outCover (p0 : Vec F S1x1024x128 .f32) (y : S1x1024x128.Idx) :
    ∃ pc ∈ ([⟨rect6, p0⟩] : List (View.Piece (Elt F) S1x1024x128 .f32)), y ∈ pc.1.set :=
  View.cover_of_tiled [⟨rect6, p0⟩] S1x1024x128.size (by rfl) y

/-! ## The body's triple -/

set_option maxHeartbeats 1000000 in
/-- The body on whole staging memrefs, the inputs' at contents `xW` and the output's at anything, runs to the
    continuation with the inputs' as they were and the output's at `outBlock` of them. -/
theorem sound_kernel (c : Dev nD) (E : Set ℕ) (i : grid0.Coords)
    (arg2 : Memref sig .tc .vmem S1x1024x2048 .f32) (harg2 : arg2.IsWhole) (arg3 : Memref sig .tc .vmem S1x2048x1024 .f32) (harg3 : arg3.IsWhole)
    (arg4 : Memref sig .tc .vmem S1x2048x128 .f32) (harg4 : arg4.IsWhole) (arg5 : Memref sig .tc .vmem S1x1024x128 .f32) (harg5 : arg5.IsWhole)
    (arg6 : Memref sig .tc .vmem S256x128 .f32) (harg6 : arg6.IsWhole) (arg7 : Memref sig .tc .vmem S1x128 .f32) (harg7 : arg7.IsWhole)
    (arg8 : Memref sig .tc .vmem S1x1024x128 .f32) (harg8 : arg8.IsWhole)
    (x0 : Vec F S1x1024x2048 .f32) (x1 : Vec F S1x2048x1024 .f32) (x2 : Vec F S1x2048x128 .f32) (x3 : Vec F S1x1024x128 .f32)
    (x4 : Vec F S256x128 .f32) (x5 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (outBlock x0 x1 x2 x3 x4 x5)) -∗ K ⟨⟩))
      ⊢ wp frame (wpE (defs₀ (F := F)) Variants.none c none) E (cc0__gnn_kernel i arg2 harg2 arg3 harg3 arg4 harg4 arg5 harg5 arg6 harg6 arg7 harg7 arg8 harg8) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _)

end Cert.KernelIdeal.Hand

end
-- ==== Proof.KIFrame.lean ====
/-
  The message-passing kernel's region, continued: the proof data of its pipeline (what each window's staging buffer
  holds after the body at each grid point), the body obligation at every point, how the launch's buffers make the
  proof data's arrays at entry when the embeddings array is read through two windows, the run, and the frame.
-/
import proofs.«150982_j23665269801224_1_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data on core `c`: the arrays as the region finds them; after the body at point `t` each input's
    buffer at its block and the output's at `outBlock` of the input blocks; the invariant the core's scoped buffers
    that are no staging buffer; nothing owed; the embeddings array's share dealt between its two windows, every
    other input array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's dues pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The arrays at entry: the embeddings' share dealt between its two windows -/

/-- The six distinct buffers behind the seven windows' arrays. -/
theorem arrImage : Finset.univ.image (Pipeline.arrRef spec0)
    = ([main_arg1, main_arg2, main_arg0, main_v0, main_v1, main_v2] : List (Ref sig .tc)).toFinset := by decide

section Split

variable (c : Dev nD) (W : (b : Ref sig .tc) → Buf (Elt F) ((c.tc : Thread nD τ).loc b))
  (dat : Dat τ (Elt F) Unit ℕ (UR sig nD τ) ℕ cfg0 c)

/-- The buffers behind the arrays, one by one. -/
theorem arrBufs_eq :
    (Pipeline.arrBufs spec0 c W : sProp 𝕄)
      = iprop((((c.tc : Thread nD τ).loc main_arg1) ↦{fullShare} W main_arg1) ∗ (((c.tc : Thread nD τ).loc main_arg2) ↦{fullShare} W main_arg2)
          ∗ (((c.tc : Thread nD τ).loc main_arg0) ↦{fullShare} W main_arg0) ∗ (((c.tc : Thread nD τ).loc main_v0) ↦{fullShare} W main_v0)
          ∗ (((c.tc : Thread nD τ).loc main_v1) ↦{fullShare} W main_v1) ∗ (((c.tc : Thread nD τ).loc main_v2) ↦{fullShare} W main_v2)) := by
  unfold Pipeline.arrBufs
  rw [bigSep_eq_bigSepL_of_eq _ arrImage (by decide)]
  rfl

/-- A window's array at entry, at the window's share, is its buffer `b` whole at the entry contents. -/
theorem arr_at (hA : ∀ w, dat.A w = W (Pipeline.arrRef spec0 w)) (w : Fin cfg0.W) (b : Ref sig .tc)
    (hb : Pipeline.arrRef spec0 w = b) :
    (((cfg0.win w).arr.view.loc (c.tc : Thread nD τ)) ↦[(cfg0.win w).arr.view.set]{dat.share w} dat.arrAt w 0 : sProp 𝕄)
      = (((c.tc : Thread nD τ).loc b) ↦{dat.share w} W b) := by
  subst hb
  rw [(arr_whole0 w).set_eq_univ]
  show (_ ↦{_} dat.A w : sProp 𝕄) = _
  rw [hA]

omit [FloatOps F] in
theorem sep_congr {P P' Q Q' : sProp 𝕄} (h : P = P') (h' : Q = Q') : (iprop(P ∗ Q) : sProp 𝕄) = iprop(P' ∗ Q') := by
  rw [h, h']

/-- The proof data's arrays at entry, one by one. -/
theorem arrays_eq (hA : ∀ w, dat.A w = W (Pipeline.arrRef spec0 w)) :
    dat.arrays (dat.arrAt · 0)
      = iprop((((c.tc : Thread nD τ).loc main_arg1) ↦{dat.share 0} W main_arg1) ∗ (((c.tc : Thread nD τ).loc main_arg2) ↦{dat.share 1} W main_arg2)
          ∗ (((c.tc : Thread nD τ).loc main_arg0) ↦{dat.share 2} W main_arg0) ∗ (((c.tc : Thread nD τ).loc main_arg0) ↦{dat.share 3} W main_arg0)
          ∗ (((c.tc : Thread nD τ).loc main_v0) ↦{dat.share 4} W main_v0) ∗ (((c.tc : Thread nD τ).loc main_v1) ↦{dat.share 5} W main_v1)
          ∗ (((c.tc : Thread nD τ).loc main_v2) ↦{dat.share 6} W main_v2)) := by
  unfold Dat.arrays
  rw [bigSep_W0]
  exact sep_congr (arr_at c W dat hA 0 main_arg1 rfl) (sep_congr (arr_at c W dat hA 1 main_arg2 rfl) (sep_congr (arr_at c W dat hA 2 main_arg0 rfl)
    (sep_congr (arr_at c W dat hA 3 main_arg0 rfl) (sep_congr (arr_at c W dat hA 4 main_v0 rfl) (sep_congr (arr_at c W dat hA 5 main_v1 rfl)
      (arr_at c W dat hA 6 main_v2 rfl))))))

/-- The buffers behind the arrays, each whole at the full share, make the proof data's arrays at entry, for any
    proof data that holds the embeddings' two windows at the two halves of the full share and every other input
    window whole: five buffers are a window's own; the embeddings' is split along its share. -/
theorem split_gen (hA : ∀ w, dat.A w = W (Pipeline.arrRef spec0 w))
    (h0 : dat.q 0 = fullShare) (h1 : dat.q 1 = fullShare) (h2 : dat.q 2 = fullShare.left) (h3 : dat.q 3 = fullShare.right)
    (h4 : dat.q 4 = fullShare) (h5 : dat.q 5 = fullShare) :
    (Pipeline.arrBufs spec0 c W : sProp 𝕄) ⊢ dat.arrays (dat.arrAt · 0) := by
  have s0 : dat.share 0 = fullShare := by unfold Dat.share; rw [if_neg (show ¬ ((cfg0.win 0).isOut = true) by decide), h0]
  have s1 : dat.share 1 = fullShare := by unfold Dat.share; rw [if_neg (show ¬ ((cfg0.win 1).isOut = true) by decide), h1]
  have s2 : dat.share 2 = fullShare.left := by unfold Dat.share; rw [if_neg (show ¬ ((cfg0.win 2).isOut = true) by decide), h2]
  have s3 : dat.share 3 = fullShare.right := by unfold Dat.share; rw [if_neg (show ¬ ((cfg0.win 3).isOut = true) by decide), h3]
  have s4 : dat.share 4 = fullShare := by unfold Dat.share; rw [if_neg (show ¬ ((cfg0.win 4).isOut = true) by decide), h4]
  have s5 : dat.share 5 = fullShare := by unfold Dat.share; rw [if_neg (show ¬ ((cfg0.win 5).isOut = true) by decide), h5]
  have s6 : dat.share 6 = fullShare := by unfold Dat.share; rw [if_pos (show (cfg0.win 6).isOut = true by decide)]
  rw [arrBufs_eq, arrays_eq c W dat hA, s0, s1, s2, s3, s4, s5, s6]
  iintro ⟨H1, H2, H0, Hv0, Hv1, Hv2⟩
  ihave H0' := (pointsTo_share (PosShare.mem_left_op_right fullShare)).1 $$ H0
  icases H0' with ⟨H0l, H0r⟩
  isplitl [H1]; · iexact H1
  isplitl [H2]; · iexact H2
  isplitl [H0l]; · iexact H0l
  isplitl [H0r]; · iexact H0r
  isplitl [Hv0]; · iexact Hv0
  isplitl [Hv1]; · iexact Hv1
  iexact Hv2

end Split

theorem hsplit (c : Dev nD) :
    (Pipeline.arrBufs spec0 c (V m c) : sProp 𝕄) ⊢ (dats m 0 c).arrays ((dats m 0 c).arrAt · 0) :=
  split_gen c (V m c) (dats m 0 c) (A_eq m c) (by dsimp only [dats]) (by dsimp only [dats]) (by dsimp only [dats])
    (by dsimp only [dats]) (by dsimp only [dats]) (by dsimp only [dats])

/-! ## The run and the frame -/

set_option backward.isDefEq.respectTransparency.types false in
/-- From any memory with zero counters every weakly fair execution of @main terminates; every window's array ends
    at what the proof data's write-backs leave, every other unscoped buffer as the region found it. -/
theorem run_main : θ_run defs (onTc (τ := τ) (main (F := F))) (s₀ m ρ) (Pipeline.FramePost cfgs (dats m) 0 (V m)) :=
  Cert.FrameShared.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hΦ := fun _ _ => rfl)

/-- The five argument arrays end unchanged: three are input windows' arrays, which no write-back touches, and two
    (the weight and the bias) are read by the host operations only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (Pipeline.mem_restRefs_of main_arg3 rfl (by decide))).trans (V_main_arg3 m c),
      ((h c).2 main_arg4 (Pipeline.mem_restRefs_of main_arg4 rfl (by decide))).trans (V_main_arg4 m c)⟩) (run_main m ρ)

end Cert.KernelIdeal.Hand

end
-- ==== Proof.KIHostVals.lean ====
/-
  The two arrays the host writes before the region, as functions of the arguments: the weight transposed and the bias
  as one row. Read at an index: the transposed weight at (k, d) is the weight at (d, k); the bias row at (0, d) is the
  bias at d.
-/
import proofs.«150982_j23665269801224_1_alg».proof.Proof.KIBody
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable {F : FTy → Type} [FloatOps F]
variable (m : (ℓ : Loc nD τ sig) → Buf (Elt F) ℓ)

/-- The region finds the transposed weight in its fifth window's array. -/
theorem V_main_v0 (c : Dev nD) :
    (V m c main_v0 : (⟨S256x128, .f32⟩ : BufTy).Contents (Elt F))
      = transpose S256x128 [1, 0] (m ((c : Thread nD τ).loc main_arg3)) transposes_S128x256_S256x128_1_0 := by
  dsimp only [V, hostOps0]; after_results <;> rfl

/-- The region finds the bias, as one row, in its sixth window's array. -/
theorem V_main_v1 (c : Dev nD) :
    (V m c main_v1 : (⟨S1x128, .f32⟩ : BufTy).Contents (Elt F))
      = shapeCast S1x128 (m ((c : Thread nD τ).loc main_arg4) : (⟨S128, .f32⟩ : BufTy).Contents (Elt F)) shapeCasts_S128_S1x128 := by
  dsimp only [V, hostOps0]; after_results <;> rfl

theorem V_main_v0_apply (c : Dev nD) (k : Fin 256) (d : Fin 128) :
    (V m c main_v0 : (⟨S256x128, .f32⟩ : BufTy).Contents (Elt F)) (ix2 k d)
      = (m ((c : Thread nD τ).loc main_arg3) : (⟨S128x256, .f32⟩ : BufTy).Contents (Elt F)) (ix2 d k) := by
  rw [V_main_v0]
  exact transpose_ix2_apply _ _ k d

theorem V_main_v1_apply (c : Dev nD) (u : Fin 1) (d : Fin 128) :
    (V m c main_v1 : (⟨S1x128, .f32⟩ : BufTy).Contents (Elt F)) (ix2 u d)
      = (m ((c : Thread nD τ).loc main_arg4) : (⟨S128, .f32⟩ : BufTy).Contents (Elt F)) (ix1 d) := by
  rw [V_main_v1]
  exact shapeCast_a_1a_apply _ _ u d

end Cert.KernelIdeal.Hand

end
-- ==== Proof.PayStages.lean ====
/-
  The kernel's stored value cut into its stages: the degree column, the neighbour sums, the concatenated row, the
  linear layer. The payload is, by unfolding alone, the last stage plus the bias, clamped, under a leading unit axis.
  The two keepdims layout readings the stages need that the library's layout file does not have come first.
-/
import proofs.«150982_j23665269801224_1_alg».proof.Proof.Gen.KernelIdeal.Skeleton
import Idealize.ShloMosaic.Lib.ValueLayout
import Idealize.ShloMosaic.PureOps.Ideal.Laws

noncomputable section

open scoped BigOperators

namespace Cert.Gnn

open Idealize.ShloMosaic Idealize.ShloMosaic.ValueIdx Cert.KernelIdeal Cert.KernelIdeal.Gen

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The degree of each of the block's 1024 nodes: the sum of its adjacency row. -/
def kDeg (x0 : Vec Ideal S1x1024x2048 .f32) : FVec Ideal S1024 .f32 :=
  multiReduction (F := Ideal) .add [1] S1024 (shapeCast S1024x2048 x0 shapeCasts_S1x1024x2048_S1024x2048)
    0x00000000#32 reduces_S1024x2048_S1024 (.inl rfl) rfl

/-- The degree as a column, spread over the 128 features. -/
def kDegB (x0 : Vec Ideal S1x1024x2048 .f32) : FVec Ideal S1024x128 .f32 :=
  broadcastTo S1024x128 (shapeCast S1024x1 (kDeg x0) shapeCasts_S1024_S1024x1) broadcasts_S1024x1_S1024x128

/-- The neighbour sums: the cost block, contracted over its first axis with the features of all nodes. -/
def kNb (x2 : Vec Ideal S1x2048x1024 .f32) (x4 : Vec Ideal S1x2048x128 .f32) : FVec Ideal S1024x128 .f32 :=
  matmul dot_S2048x1024_S2048x128_S1024x128_0_0_1_1_n_n none
    (truncf .bf16 (shapeCast S2048x1024 x2 shapeCasts_S1x2048x1024_S2048x1024) bitsLt_bf16_f32)
    (truncf .bf16 (shapeCast S2048x128 x4 shapeCasts_S1x2048x128_S2048x128) bitsLt_bf16_f32)
    (constant (F := Ideal) S1024x128 .f32 0x00000000#32)

/-- The concatenated rows: own features, then neighbour sums over the degree. -/
def kCat (x0 : Vec Ideal S1x1024x2048 .f32) (x2 : Vec Ideal S1x2048x1024 .f32) (x4 : Vec Ideal S1x2048x128 .f32)
    (x6 : Vec Ideal S1x1024x128 .f32) : FVec Ideal S1024x256 .f32 :=
  concatenate S1024x256 1 [⟨S1024x128, shapeCast S1024x128 x6 shapeCasts_S1x1024x128_S1024x128⟩,
    ⟨S1024x128, divf (kNb x2 x4) (kDegB x0)⟩] concatenates_S1024x128_S1024x128_S1024x256_d1

/-- The linear layer: the rows against the transposed weights. -/
def kLin (x0 : Vec Ideal S1x1024x2048 .f32) (x2 : Vec Ideal S1x2048x1024 .f32) (x4 : Vec Ideal S1x2048x128 .f32)
    (x6 : Vec Ideal S1x1024x128 .f32) (x17 : Vec Ideal S256x128 .f32) : FVec Ideal S1024x128 .f32 :=
  matmul dot_S1024x256_S256x128_S1024x128_1_0_0_1_n_n none
    (truncf .bf16 (kCat x0 x2 x4 x6) bitsLt_bf16_f32)
    (truncf .bf16 (shapeCast S256x128 x17 shapeCasts_S256x128_S256x128) bitsLt_bf16_f32)
    (constant (F := Ideal) S1024x128 .f32 0x00000000#32)

/-- The payload is the linear layer plus the bias row, clamped below at zero, under a leading unit axis. -/
theorem k0_pay1_eq (x0 : Vec Ideal S1x1024x2048 .f32) (x2 : Vec Ideal S1x2048x1024 .f32) (x4 : Vec Ideal S1x2048x128 .f32)
    (x6 : Vec Ideal S1x1024x128 .f32) (x17 : Vec Ideal S256x128 .f32) (x21 : Vec Ideal S1x128 .f32) :
    k0_pay1 (F := Ideal) x0 x2 x4 x6 x17 x21
      = shapeCast S1x1024x128
          (maximumf
            (addf (kLin x0 x2 x4 x6 x17)
              (broadcastTo S1024x128 (shapeCast S1x128 x21 shapeCasts_S1x128_S1x128) broadcasts_S1x128_S1024x128))
            (broadcast S1024x128 (Scalar.ofBits (F := Ideal) .f32 0x00000000#32)))
          shapeCasts_S1024x128_S1x1024x128 := rfl

end Cert.Gnn

end
-- ==== Proof.PaySpec.lean ====
/-
  The function both programs compute at one node and one output feature. A node's row of 256 features is its own
  128 features followed by, for each of the 128 features, the cost-weighted sum of that feature over all nodes divided
  by the node's degree (the sum of its adjacency row). The output element is that row times one row of the weights,
  plus the bias, clamped below at zero. Stated over extended reals with no program in sight: the payload of the kernel
  and the reference's result are each shown to be `out` of their own operands.
-/
import Idealize.ShloMosaic.PureOps.Ideal
import Idealize.ShloMosaic.Lib.ValueIdx

noncomputable section

open scoped BigOperators

namespace Cert.Gnn

open Idealize.ShloMosaic

/-- The concatenated feature row: the node's own 128 features, then the 128 neighbour sums, each divided by the
    degree. -/
def cat (own nb : Fin 128 → EReal) (deg : EReal) (k : Fin 256) : EReal :=
  if h : k.val < 128 then own ⟨k.val, h⟩ else Ideal.div (nb ⟨k.val - 128, by omega⟩) deg

/-- One output element: the row against one row of the weights, plus the bias, clamped below at zero (the zero is
    kept as the word both programs write). -/
def out (own nb : Fin 128 → EReal) (deg : EReal) (w : Fin 256 → EReal) (b : EReal) : EReal :=
  max ((∑ k : Fin 256, cat own nb deg k * w k) + b) (Ideal.ofBits .f32 0x00000000#32)

/-- In the first half the row is the node's own feature. -/
theorem cat_lt (own nb : Fin 128 → EReal) (deg : EReal) (k : Fin 256) (h : k.val < 128) :
    cat own nb deg k = own ⟨k.val, h⟩ := dif_pos h

/-- In the second half the row is the neighbour sum over the degree. -/
theorem cat_ge (own nb : Fin 128 → EReal) (deg : EReal) (k : Fin 256) (h : ¬ k.val < 128) :
    cat own nb deg k = Ideal.div (nb ⟨k.val - 128, by omega⟩) deg := dif_neg h

end Cert.Gnn

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.PayIdx.lean ====
/-
  The kernel's stored value read at one node `n` of the block and one output feature `d`: each stage at an index,
  then the payload as `out` of the block's operands.
-/
import proofs.«150982_j23665269801224_1_alg».proof.Proof.PayStages
import proofs.«150982_j23665269801224_1_alg».proof.Proof.PaySpec
import proofs.«150982_j23665269801224_1_alg».proof.Proof.LibColBroadcast

noncomputable section

open scoped BigOperators

namespace Cert.Gnn

open Idealize.ShloMosaic Idealize.ShloMosaic.ValueIdx Cert.KernelIdeal Cert.KernelIdeal.Gen

/-- The neighbour-sum contraction keeps the left operand's second axis: the result's row. -/
theorem nb_lhs_1 (j : S1024x128.Idx) (q : dot_S2048x1024_S2048x128_S1024x128_0_0_1_1_n_n.contr.Idx) :
    (dot_S2048x1024_S2048x128_S1024x128_0_0_1_1_n_n.lhsIdx j q 1).val = (j 0).val := by
  unfold DotDims.lhsIdx
  rw [dif_neg (show ¬(1 : Fin S2048x1024.rank) ∈ dot_S2048x1024_S2048x128_S1024x128_0_0_1_1_n_n.lhsBatch by decide),
    dif_pos (show (1 : Fin S2048x1024.rank) ∈ dot_S2048x1024_S2048x128_S1024x128_0_0_1_1_n_n.lhsNonContracting by decide)]
  rfl
/-- … and the right operand's second axis: the result's column. -/
theorem nb_rhs_1 (j : S1024x128.Idx) (q : dot_S2048x1024_S2048x128_S1024x128_0_0_1_1_n_n.contr.Idx) :
    (dot_S2048x1024_S2048x128_S1024x128_0_0_1_1_n_n.rhsIdx j q 1).val = (j 1).val := by
  unfold DotDims.rhsIdx
  rw [dif_neg (show ¬(1 : Fin S2048x128.rank) ∈ dot_S2048x1024_S2048x128_S1024x128_0_0_1_1_n_n.rhsBatch by decide),
    dif_pos (show (1 : Fin S2048x128.rank) ∈ dot_S2048x1024_S2048x128_S1024x128_0_0_1_1_n_n.rhsNonContracting by decide)]
  rfl
/-- The linear layer's contraction keeps the left operand's first axis: the result's row. -/
theorem lin_lhs_0 (j : S1024x128.Idx) (q : dot_S1024x256_S256x128_S1024x128_1_0_0_1_n_n.contr.Idx) :
    (dot_S1024x256_S256x128_S1024x128_1_0_0_1_n_n.lhsIdx j q 0).val = (j 0).val := by
  unfold DotDims.lhsIdx
  rw [dif_neg (show ¬(0 : Fin S1024x256.rank) ∈ dot_S1024x256_S256x128_S1024x128_1_0_0_1_n_n.lhsBatch by decide),
    dif_pos (show (0 : Fin S1024x256.rank) ∈ dot_S1024x256_S256x128_S1024x128_1_0_0_1_n_n.lhsNonContracting by decide)]
  rfl
/-- … and the right operand's second axis: the result's column. -/
theorem lin_rhs_1 (j : S1024x128.Idx) (q : dot_S1024x256_S256x128_S1024x128_1_0_0_1_n_n.contr.Idx) :
    (dot_S1024x256_S256x128_S1024x128_1_0_0_1_n_n.rhsIdx j q 1).val = (j 1).val := by
  unfold DotDims.rhsIdx
  rw [dif_neg (show ¬(1 : Fin S256x128.rank) ∈ dot_S1024x256_S256x128_S1024x128_1_0_0_1_n_n.rhsBatch by decide),
    dif_pos (show (1 : Fin S256x128.rank) ∈ dot_S1024x256_S256x128_S1024x128_1_0_0_1_n_n.rhsNonContracting by decide)]
  rfl

/-- The degree of node `n` is the sum of its adjacency row. -/
theorem kDeg_apply (x0 : Vec Ideal S1x1024x2048 .f32) (n : Fin 1024) :
    kDeg x0 (ix1 n) = ∑ j : Fin 2048, x0 (ix3 (0 : Fin 1) n j) := by
  unfold kDeg
  refine (Ideal.multiReduction_add_single _ _ reduces_S1024x2048_S1024 _ _ (ix1 n)).trans ?_
  refine Finset.sum_congr rfl fun (j : Fin 2048) _ => ?_
  have e : reduces_S1024x2048_S1024.lift (ix1 n) j = ix2 n j :=
    funext fun a => Fin.ext (by match a with | ⟨0, _⟩ => rfl | ⟨1, _⟩ => rfl)
  exact (congrArg (shapeCast S1024x2048 x0 shapeCasts_S1x1024x2048_S1024x2048) e).trans
    (shapeCast_1ab_ab_apply x0 _ n j)

/-- Spread over the features it is the same sum at every feature. -/
theorem kDegB_apply (x0 : Vec Ideal S1x1024x2048 .f32) (n : Fin 1024) (c : Fin 128) :
    kDegB x0 (ix2 n c) = ∑ j : Fin 2048, x0 (ix3 (0 : Fin 1) n j) :=
  (Cert.LibColBroadcast.broadcastTo_a1_ab_apply _ broadcasts_S1024x1_S1024x128 n c).trans
    ((shapeCast_a_a1_apply (kDeg x0) shapeCasts_S1024_S1024x1 n (0 : Fin 1)).trans (kDeg_apply x0 n))

/-- The neighbour sum of node `n` at feature `e`: over all nodes `i`, the cost of `(i, n)` times `i`'s feature. -/
theorem kNb_apply (x2 : Vec Ideal S1x2048x1024 .f32) (x4 : Vec Ideal S1x2048x128 .f32) (n : Fin 1024) (e : Fin 128) :
    kNb x2 x4 (ix2 n e) = ∑ i : Fin 2048, x2 (ix3 (0 : Fin 1) i n) * x4 (ix3 (0 : Fin 1) i e) := by
  unfold kNb
  refine (Ideal.matmul_constant_zero_apply dot_S2048x1024_S2048x128_S1024x128_0_0_1_1_n_n none _ _ (ix2 n e)).trans ?_
  rw [← Equiv.sum_comp (contrEquiv1 dot_S2048x1024_S2048x128_S1024x128_0_0_1_1_n_n 2048 rfl rfl).symm]
  refine Finset.sum_congr rfl fun k _ => ?_
  have hk := contrEquiv1_symm_val dot_S2048x1024_S2048x128_S1024x128_0_0_1_1_n_n 2048 rfl rfl k
  have el : dot_S2048x1024_S2048x128_S1024x128_0_0_1_1_n_n.lhsIdx (ix2 n e)
      ((contrEquiv1 dot_S2048x1024_S2048x128_S1024x128_0_0_1_1_n_n 2048 rfl rfl).symm k) = ix2 k n :=
    funext fun a => Fin.ext (by
      match a with
      | ⟨0, _⟩ => exact (dot_S2048x1024_S2048x128_S1024x128_0_0_1_1_n_n.lhsIdx_val_of_single rfl _ _).trans hk
      | ⟨1, _⟩ => exact nb_lhs_1 _ _)
  have er : dot_S2048x1024_S2048x128_S1024x128_0_0_1_1_n_n.rhsIdx (ix2 n e)
      ((contrEquiv1 dot_S2048x1024_S2048x128_S1024x128_0_0_1_1_n_n 2048 rfl rfl).symm k) = ix2 k e :=
    funext fun a => Fin.ext (by
      match a with
      | ⟨0, _⟩ => exact (dot_S2048x1024_S2048x128_S1024x128_0_0_1_1_n_n.rhsIdx_val_of_single rfl _ _).trans hk
      | ⟨1, _⟩ => exact nb_rhs_1 _ _)
  rw [el, er]
  show shapeCast S2048x1024 x2 shapeCasts_S1x2048x1024_S2048x1024 (ix2 k n)
      * shapeCast S2048x128 x4 shapeCasts_S1x2048x128_S2048x128 (ix2 k e) = _
  rw [shapeCast_1ab_ab_apply x2 _ k n, shapeCast_1ab_ab_apply x4 _ k e]

/-- The concatenated row of node `n` is `cat` of its own features, its neighbour sums and its degree. -/
theorem kCat_apply (x0 : Vec Ideal S1x1024x2048 .f32) (x2 : Vec Ideal S1x2048x1024 .f32) (x4 : Vec Ideal S1x2048x128 .f32)
    (x6 : Vec Ideal S1x1024x128 .f32) (n : Fin 1024) (k : Fin 256) :
    kCat x0 x2 x4 x6 (ix2 n k)
      = cat (fun e => x6 (ix3 (0 : Fin 1) n e))
          (fun e => ∑ i : Fin 2048, x2 (ix3 (0 : Fin 1) i n) * x4 (ix3 (0 : Fin 1) i e))
          (∑ j : Fin 2048, x0 (ix3 (0 : Fin 1) n j)) k := by
  unfold kCat
  by_cases h : k.val < 128
  · rw [cat_lt _ _ _ k h]
    refine (concatenate_pair_apply_left (1 : Fin S1024x256.rank) _ _ concatenates_S1024x128_S1024x128_S1024x256_d1
      (ix2 n k) rfl (ix2 n (⟨k.val, h⟩ : Fin 128)) (fun b => by match b with | ⟨0, _⟩ => rfl | ⟨1, _⟩ => rfl)).trans ?_
    exact shapeCast_1ab_ab_apply x6 _ n ⟨k.val, h⟩
  · rw [cat_ge _ _ _ k h]
    have hk : k.val - 128 < 128 := by have := k.isLt; omega
    refine (concatenate_pair_apply_right (1 : Fin S1024x256.rank) _ _ concatenates_S1024x128_S1024x128_S1024x256_d1
      (ix2 n k) rfl rfl (ix2 n (⟨k.val - 128, hk⟩ : Fin 128))
      (fun b hb => by
        match b, hb with
        | ⟨0, _⟩, _ => rfl
        | ⟨1, _⟩, hb => exact absurd rfl hb)
      (by show k.val - 128 + 128 = k.val; omega)).trans ?_
    show Ideal.div (kNb x2 x4 (ix2 n ⟨k.val - 128, hk⟩)) (kDegB x0 (ix2 n ⟨k.val - 128, hk⟩)) = _
    rw [kNb_apply, kDegB_apply]

/-- The linear layer at `(n, d)`: the row of node `n` against column `d` of the transposed weights. -/
theorem kLin_apply (x0 : Vec Ideal S1x1024x2048 .f32) (x2 : Vec Ideal S1x2048x1024 .f32) (x4 : Vec Ideal S1x2048x128 .f32)
    (x6 : Vec Ideal S1x1024x128 .f32) (x17 : Vec Ideal S256x128 .f32) (n : Fin 1024) (d : Fin 128) :
    kLin x0 x2 x4 x6 x17 (ix2 n d)
      = ∑ k : Fin 256, cat (fun e => x6 (ix3 (0 : Fin 1) n e))
          (fun e => ∑ i : Fin 2048, x2 (ix3 (0 : Fin 1) i n) * x4 (ix3 (0 : Fin 1) i e))
          (∑ j : Fin 2048, x0 (ix3 (0 : Fin 1) n j)) k * x17 (ix2 k d) := by
  unfold kLin
  refine (Ideal.matmul_constant_zero_apply dot_S1024x256_S256x128_S1024x128_1_0_0_1_n_n none _ _ (ix2 n d)).trans ?_
  rw [← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have el : dot_S1024x256_S256x128_S1024x128_1_0_0_1_n_n.lhsIdx (ix2 n d)
      ((contrEquiv1 dot_S1024x256_S256x128_S1024x128_1_0_0_1_n_n 256 rfl rfl).symm k) = ix2 n k :=
    funext fun a => Fin.ext (by
      match a with
      | ⟨0, _⟩ => exact lin_lhs_0 _ _
      | ⟨1, _⟩ => exact (dot_S1024x256_S256x128_S1024x128_1_0_0_1_n_n.lhsIdx_val_of_single rfl _ _).trans hk)
  have er : dot_S1024x256_S256x128_S1024x128_1_0_0_1_n_n.rhsIdx (ix2 n d)
      ((contrEquiv1 dot_S1024x256_S256x128_S1024x128_1_0_0_1_n_n 256 rfl rfl).symm k) = ix2 k d :=
    funext fun a => Fin.ext (by
      match a with
      | ⟨0, _⟩ => exact (dot_S1024x256_S256x128_S1024x128_1_0_0_1_n_n.rhsIdx_val_of_single rfl _ _).trans hk
      | ⟨1, _⟩ => exact lin_rhs_1 _ _)
  rw [el, er]
  show kCat x0 x2 x4 x6 (ix2 n k) * shapeCast S256x128 x17 shapeCasts_S256x128_S256x128 (ix2 k d) = _
  rw [kCat_apply, shapeCast_self]

/-- THE PAYLOAD AT `(0, n, d)` is `out` of the block's operands. -/
theorem k0_pay1_apply (x0 : Vec Ideal S1x1024x2048 .f32) (x2 : Vec Ideal S1x2048x1024 .f32) (x4 : Vec Ideal S1x2048x128 .f32)
    (x6 : Vec Ideal S1x1024x128 .f32) (x17 : Vec Ideal S256x128 .f32) (x21 : Vec Ideal S1x128 .f32)
    (n : Fin 1024) (d : Fin 128) :
    k0_pay1 (F := Ideal) x0 x2 x4 x6 x17 x21 (ix3 (0 : Fin 1) n d)
      = out (fun e => x6 (ix3 (0 : Fin 1) n e))
          (fun e => ∑ i : Fin 2048, x2 (ix3 (0 : Fin 1) i n) * x4 (ix3 (0 : Fin 1) i e))
          (∑ j : Fin 2048, x0 (ix3 (0 : Fin 1) n j)) (fun k => x17 (ix2 k d)) (x21 (ix2 (0 : Fin 1) d)) := by
  rw [k0_pay1_eq]
  refine (shapeCast_ab_1ab_apply _ shapeCasts_S1024x128_S1x1024x128 (0 : Fin 1) n d).trans ?_
  show max (kLin x0 x2 x4 x6 x17 (ix2 n d)
      + broadcastTo S1024x128 (shapeCast S1x128 x21 shapeCasts_S1x128_S1x128) broadcasts_S1x128_S1024x128 (ix2 n d))
      (Ideal.ofBits .f32 0x00000000#32) = _
  rw [kLin_apply, broadcastTo_1b_ab_apply, shapeCast_self]
  rfl

end Cert.Gnn

end
-- ==== Proof.RefIdx.lean ====
/-
  The reference's result read at one batch `bb`, one node `r` and one output feature `d`: the degree, the neighbour
  sums and the concatenated row at an index, then the result as `out` of the arrays.
-/
import proofs.«150982_j23665269801224_1_alg».proof.Proof.Gen.ReferenceIdeal.Read
import proofs.«150982_j23665269801224_1_alg».proof.Proof.PaySpec

noncomputable section

open scoped BigOperators

namespace Cert.Gnn

open Idealize.ShloMosaic Idealize.ShloMosaic.ValueIdx Cert.ReferenceIdeal Cert.ReferenceIdeal.Read

/-- The degree, spread over the features: zero plus the sum of the node's adjacency row, so that sum. -/
theorem rDeg_apply (adj : (⟨S8x2048x2048, .f32⟩ : BufTy).Contents (Elt Ideal)) (bb : Fin 8) (r : Fin 2048) (e : Fin 128) :
    val_main_v3 (F := Ideal) adj (ix3 bb r e) = ∑ j : Fin 2048, adj (ix3 bb r j) := by
  rw [val_main_v3_apply, val_main_v1_apply, val_main_v0_apply, val_main_cst_apply, Ideal.ofBits_def,
    Ideal.ofBits_zero_f32, zero_add]
  refine Finset.sum_congr rfl fun j _ => congrArg adj (funext fun a => Fin.ext (by
    match a with | ⟨0, _⟩ => rfl | ⟨1, _⟩ => rfl | ⟨2, _⟩ => rfl))

/-- The neighbour sum of node `r` at feature `e`. -/
theorem rNb_apply (emb : (⟨S8x2048x128, .f32⟩ : BufTy).Contents (Elt Ideal))
    (cost : (⟨S8x2048x2048, .f32⟩ : BufTy).Contents (Elt Ideal)) (bb : Fin 8) (r : Fin 2048) (e : Fin 128) :
    val_main_v2 (F := Ideal) emb cost (ix3 bb r e) = ∑ i : Fin 2048, cost (ix3 bb i r) * emb (ix3 bb i e) := by
  rw [val_main_v2_apply]
  refine Finset.sum_congr rfl fun i _ => ?_
  have el : lidx_main_v2 (ix3 bb r e) i = ix3 bb i r :=
    funext fun a => Fin.ext (by match a with | ⟨0, _⟩ => rfl | ⟨1, _⟩ => rfl | ⟨2, _⟩ => rfl)
  have er : ridx_main_v2 (ix3 bb r e) i = ix3 bb i e :=
    funext fun a => Fin.ext (by match a with | ⟨0, _⟩ => rfl | ⟨1, _⟩ => rfl | ⟨2, _⟩ => rfl)
  rw [el, er]

/-- The concatenated row of node `r` is `cat` of its own features, its neighbour sums and its degree. -/
theorem rCat_apply (emb : (⟨S8x2048x128, .f32⟩ : BufTy).Contents (Elt Ideal))
    (adj cost : (⟨S8x2048x2048, .f32⟩ : BufTy).Contents (Elt Ideal)) (bb : Fin 8) (r : Fin 2048) (k : Fin 256) :
    val_main_v5 (F := Ideal) emb adj cost (ix3 bb r k)
      = cat (fun e => emb (ix3 bb r e)) (fun e => ∑ i : Fin 2048, cost (ix3 bb i r) * emb (ix3 bb i e))
          (∑ j : Fin 2048, adj (ix3 bb r j)) k := by
  unfold val_main_v5
  by_cases h : k.val < 128
  · rw [cat_lt _ _ _ k h]
    exact concatenate_pair_apply_left (t := S8x2048x256) (s₁ := S8x2048x128) (s₂ := S8x2048x128) (2 : Fin S8x2048x256.rank) _ _ _
      (ix3 bb r k) rfl (ix3 bb r (⟨k.val, h⟩ : Fin 128))
      (fun b => by match b with | ⟨0, _⟩ => rfl | ⟨1, _⟩ => rfl | ⟨2, _⟩ => rfl)
  · rw [cat_ge _ _ _ k h]
    have hk : k.val - 128 < 128 := by have := k.isLt; omega
    refine (concatenate_pair_apply_right (t := S8x2048x256) (s₁ := S8x2048x128) (s₂ := S8x2048x128) (2 : Fin S8x2048x256.rank) _ _ _
      (ix3 bb r k) rfl rfl (ix3 bb r (⟨k.val - 128, hk⟩ : Fin 128))
      (fun b hb => by
        match b, hb with
        | ⟨0, _⟩, _ => rfl
        | ⟨1, _⟩, _ => rfl
        | ⟨2, _⟩, hb => exact absurd rfl hb)
      (by show k.val - 128 + 128 = k.val; omega)).trans ?_
    rw [val_main_v4_apply, Ideal.hostDivf_def, rNb_apply, rDeg_apply]

/-- THE REFERENCE AT `(bb, r, d)` is `out` of the arrays. -/
theorem ref_apply (emb : (⟨S8x2048x128, .f32⟩ : BufTy).Contents (Elt Ideal))
    (adj cost : (⟨S8x2048x2048, .f32⟩ : BufTy).Contents (Elt Ideal))
    (W : (⟨S128x256, .f32⟩ : BufTy).Contents (Elt Ideal)) (bias : (⟨S128, .f32⟩ : BufTy).Contents (Elt Ideal))
    (bb : Fin 8) (r : Fin 2048) (d : Fin 128) :
    val_main_v10 (F := Ideal) emb adj cost W bias (ix3 bb r d)
      = out (fun e => emb (ix3 bb r e)) (fun e => ∑ i : Fin 2048, cost (ix3 bb i r) * emb (ix3 bb i e))
          (∑ j : Fin 2048, adj (ix3 bb r j)) (fun k => W (ix2 d k)) (bias (ix1 d)) := by
  rw [val_main_v10_apply, val_main_v9_apply, val_main_v6_apply, val_main_v8_apply, val_main_v7_apply,
    val_main_call0_v0_apply, val_main_call0_cst_apply]
  unfold out
  simp only [Ideal.maximumf_def, Ideal.addf_def, Ideal.ofBits_def]
  have eb : idx_main_v7 (idx_main_v8 (ix3 bb r d)) = ix1 d :=
    funext fun a => Fin.ext (by match a with | ⟨0, _⟩ => rfl)
  rw [eb]
  refine congrArg (fun s => max (s + bias (ix1 d)) (Ideal.ofBits .f32 0x00000000#32)) (Finset.sum_congr rfl fun k _ => ?_)
  have el : lidx_main_v6 (ix3 bb r d) k = ix3 bb r k :=
    funext fun a => Fin.ext (by match a with | ⟨0, _⟩ => rfl | ⟨1, _⟩ => rfl | ⟨2, _⟩ => rfl)
  have er : ridx_main_v6 (ix3 bb r d) k = ix2 d k :=
    funext fun a => Fin.ext (by match a with | ⟨0, _⟩ => rfl | ⟨1, _⟩ => rfl)
  rw [el, er, rCat_apply]

end Cert.Gnn

end
-- ==== Proof.Bridge.lean ====
/-
  The kernel's stored value and the reference's result are one function: when a block's operands are the arrays read
  at batch `bb` and at the rows `row n` the block stands for (the weights transposed, the bias as a row), the payload at
  `(0, n, d)` is the reference at `(bb, row n, d)`. Both are `out` of their operands, and the operands agree term by
  term: no sum is reordered and no factor moved.
-/
import proofs.«150982_j23665269801224_1_alg».proof.Proof.PayIdx
import proofs.«150982_j23665269801224_1_alg».proof.Proof.RefIdx

noncomputable section

open scoped BigOperators

open Idealize.ShloMosaic Idealize.ShloMosaic.ValueIdx in
theorem Cert.Gnn.pay_eq
    (emb : (⟨Cert.ReferenceIdeal.S8x2048x128, .f32⟩ : BufTy).Contents (Elt Ideal))
    (adj cost : (⟨Cert.ReferenceIdeal.S8x2048x2048, .f32⟩ : BufTy).Contents (Elt Ideal))
    (W : (⟨Cert.ReferenceIdeal.S128x256, .f32⟩ : BufTy).Contents (Elt Ideal))
    (bias : (⟨Cert.ReferenceIdeal.S128, .f32⟩ : BufTy).Contents (Elt Ideal))
    (x0 : Vec Ideal Cert.KernelIdeal.S1x1024x2048 .f32) (x2 : Vec Ideal Cert.KernelIdeal.S1x2048x1024 .f32)
    (x4 : Vec Ideal Cert.KernelIdeal.S1x2048x128 .f32) (x6 : Vec Ideal Cert.KernelIdeal.S1x1024x128 .f32)
    (x17 : Vec Ideal Cert.KernelIdeal.S256x128 .f32) (x21 : Vec Ideal Cert.KernelIdeal.S1x128 .f32)
    (bb : Fin 8) (row : Fin 1024 → Fin 2048)
    (h0 : ∀ (n : Fin 1024) (j : Fin 2048), x0 (ix3 (0 : Fin 1) n j) = adj (ix3 bb (row n) j))
    (h2 : ∀ (i : Fin 2048) (n : Fin 1024), x2 (ix3 (0 : Fin 1) i n) = cost (ix3 bb i (row n)))
    (h4 : ∀ (i : Fin 2048) (d : Fin 128), x4 (ix3 (0 : Fin 1) i d) = emb (ix3 bb i d))
    (h6 : ∀ (n : Fin 1024) (d : Fin 128), x6 (ix3 (0 : Fin 1) n d) = emb (ix3 bb (row n) d))
    (h17 : ∀ (k : Fin 256) (d : Fin 128), x17 (ix2 k d) = W (ix2 d k))
    (h21 : ∀ (d : Fin 128), x21 (ix2 (0 : Fin 1) d) = bias (ix1 d))
    (n : Fin 1024) (d : Fin 128) :
    Cert.KernelIdeal.Gen.k0_pay1 (F := Ideal) x0 x2 x4 x6 x17 x21 (ix3 (0 : Fin 1) n d)
      = Cert.ReferenceIdeal.Read.val_main_v10 (F := Ideal) emb adj cost W bias (ix3 bb (row n) d) := by
  rw [Cert.Gnn.k0_pay1_apply, Cert.Gnn.ref_apply]
  simp only [h0, h2, h4, h6, h17, h21]

end
-- ==== Proof.KIValue.lean ====
/-
  The value of the message-passing kernel at the ideal instance: after the run the result array holds, at every
  index, the reference's function of the five argument arrays.

  Point (b, h) of the 8 × 2 grid writes back the [1, 1024, 128] block at rows 1024·h … 1024·h + 1023 of batch b.
  Its contents are the body's payload of the six input blocks at that point; each input block, read at an index,
  is its argument array at the corresponding index (the adjacency and row-slice blocks at row 1024·h + n, the cost
  block at column 1024·h + n, the batch slice of the embeddings at every row, the transposed weight and the bias row
  as the host operations left them), so the payload at (0, n, d) is the reference's value at (b, 1024·h + n, d). The
  sixteen blocks tile the result array, so the whole array is that function.
-/
import proofs.«150982_j23665269801224_1_alg».proof.Proof.KIFrame
import proofs.«150982_j23665269801224_1_alg».proof.Proof.KIHostVals
import proofs.«150982_j23665269801224_1_alg».proof.Proof.Bridge
import proofs.«150982_j23665269801224_1_alg».proof.Proof.Gen.ReferenceIdeal.Read
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- What the result array ends holding: the reference's last stage of the five argument arrays — at (b, n, d), the
    larger of zero and Σ_k cat(b, n, k) · W(d, k) + bias(d), where cat joins the embedding row with the
    cost-weighted sum of all embedding rows divided by the adjacency row sum. -/
abbrev G (c : Dev nD) : (⟨S8x2048x128, .f32⟩ : BufTy).Contents (Elt Ideal) :=
  Cert.ReferenceIdeal.Read.val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the sixteen grid points: at point (b, h) the adjacency, row-slice and output
    windows sit at block (b, h, 0), the cost window at (b, 0, h), the batch-slice window at (b, 0, 0), and the weight
    and bias windows at the origin. -/
theorem idx_facts : ∀ t : Fin cfg0.N,
    win0_0.index t (0 : Fin 3) = win0_6.index t (0 : Fin 3) ∧ win0_0.index t (1 : Fin 3) = win0_6.index t (1 : Fin 3) ∧ win0_0.index t (2 : Fin 3) = 0
    ∧ win0_1.index t (0 : Fin 3) = win0_6.index t (0 : Fin 3) ∧ win0_1.index t (1 : Fin 3) = 0 ∧ win0_1.index t (2 : Fin 3) = win0_6.index t (1 : Fin 3)
    ∧ win0_2.index t (0 : Fin 3) = win0_6.index t (0 : Fin 3) ∧ win0_2.index t (1 : Fin 3) = 0 ∧ win0_2.index t (2 : Fin 3) = 0
    ∧ win0_3.index t (0 : Fin 3) = win0_6.index t (0 : Fin 3) ∧ win0_3.index t (1 : Fin 3) = win0_6.index t (1 : Fin 3) ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) ≤ 7 ∧ win0_6.index t (1 : Fin 3) ≤ 1 ∧ win0_6.index t (2 : Fin 3) = 0 :=
  (by decide +kernel : ∀ t : Fin grid0.N, _)

/-- Every (batch, half) pair is some point's output block. -/
theorem idx_onto : ∀ (q0 : Fin 8) (q1 : Fin 2), ∃ t : Fin cfg0.N, win0_6.index t = ![q0.val, q1.val, 0] :=
  (by decide +kernel : ∀ (q0 : Fin 8) (q1 : Fin 2), ∃ t : Fin grid0.N, win0_6.index t = ![q0.val, q1.val, 0])

/-- What point `t` writes back is block `t` of `G`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after6]
  unfold outBlock
  rw [View.canon_unit_zero hz3]
  simp only [View.ld_unit_zero (S := S1x1024x2048) hz3, View.ld_unit_zero (S := S1x2048x1024) hz3, View.ld_unit_zero (S := S1x2048x128) hz3,
    View.ld_unit_zero (S := S1x1024x128) hz3, View.ld_unit_zero (S := S256x128) hz2, View.ld_unit_zero (S := S1x128) hz2]
  obtain ⟨e00, e01, e02, e10, e11, e12, e20, e21, e22, e30, e31, e32, e40, e41, e50, e51, b0, b1, e62⟩ := idx_facts t
  funext y
  obtain ⟨u, n, d, rfl⟩ : ∃ (u : Fin 1) (n : Fin 1024) (d : Fin 128), y = ix3 u n d := ⟨y 0, y 1, y 2, eq_ix3 y⟩
  obtain rfl : u = 0 := Subsingleton.elim _ _
  have hn : n.val < 1024 := n.isLt
  have hd : d.val < 128 := d.isLt
  let bb : Fin 8 := ⟨win0_6.index t (0 : Fin 3), by omega⟩
  let row : Fin 1024 → Fin 2048 := fun n => ⟨win0_6.index t (1 : Fin 3) * 1024 + n.val, by have := n.isLt; omega⟩
  have h0 : ∀ (n : Fin 1024) (j : Fin 2048), iblk m c 0 t (ix3 (0 : Fin 1) n j) = (m ((c : Thread nD τ).loc main_arg1)) (ix3 bb (row n) j) := fun n j => by
    show V m c main_arg1 (((cfg0.win 0).blk t).view.emb (ix3 (0 : Fin 1) n j)) = _
    rw [V_main_arg1]
    refine congrArg _ (funext fun a => Fin.ext ?_)
    match a with
    | ⟨0, _⟩ => show win0_0.index t (0 : Fin 3) * 1 + 1 * 0 = win0_6.index t (0 : Fin 3); omega
    | ⟨1, _⟩ => show win0_0.index t (1 : Fin 3) * 1024 + 1 * n.val = win0_6.index t (1 : Fin 3) * 1024 + n.val; omega
    | ⟨2, _⟩ => show win0_0.index t (2 : Fin 3) * 2048 + 1 * j.val = j.val; omega
  have h2 : ∀ (i : Fin 2048) (n : Fin 1024), iblk m c 1 t (ix3 (0 : Fin 1) i n) = (m ((c : Thread nD τ).loc main_arg2)) (ix3 bb i (row n)) := fun i n => by
    show V m c main_arg2 (((cfg0.win 1).blk t).view.emb (ix3 (0 : Fin 1) i n)) = _
    rw [V_main_arg2]
    refine congrArg _ (funext fun a => Fin.ext ?_)
    match a with
    | ⟨0, _⟩ => show win0_1.index t (0 : Fin 3) * 1 + 1 * 0 = win0_6.index t (0 : Fin 3); omega
    | ⟨1, _⟩ => show win0_1.index t (1 : Fin 3) * 2048 + 1 * i.val = i.val; omega
    | ⟨2, _⟩ => show win0_1.index t (2 : Fin 3) * 1024 + 1 * n.val = win0_6.index t (1 : Fin 3) * 1024 + n.val; omega
  have h4 : ∀ (i : Fin 2048) (d : Fin 128), iblk m c 2 t (ix3 (0 : Fin 1) i d) = (m ((c : Thread nD τ).loc main_arg0)) (ix3 bb i d) := fun i d => by
    show V m c main_arg0 (((cfg0.win 2).blk t).view.emb (ix3 (0 : Fin 1) i d)) = _
    rw [V_main_arg0]
    refine congrArg _ (funext fun a => Fin.ext ?_)
    match a with
    | ⟨0, _⟩ => show win0_2.index t (0 : Fin 3) * 1 + 1 * 0 = win0_6.index t (0 : Fin 3); omega
    | ⟨1, _⟩ => show win0_2.index t (1 : Fin 3) * 2048 + 1 * i.val = i.val; omega
    | ⟨2, _⟩ => show win0_2.index t (2 : Fin 3) * 128 + 1 * d.val = d.val; omega
  have h6 : ∀ (n : Fin 1024) (d : Fin 128), iblk m c 3 t (ix3 (0 : Fin 1) n d) = (m ((c : Thread nD τ).loc main_arg0)) (ix3 bb (row n) d) := fun n d => by
    show V m c main_arg0 (((cfg0.win 3).blk t).view.emb (ix3 (0 : Fin 1) n d)) = _
    rw [V_main_arg0]
    refine congrArg _ (funext fun a => Fin.ext ?_)
    match a with
    | ⟨0, _⟩ => show win0_3.index t (0 : Fin 3) * 1 + 1 * 0 = win0_6.index t (0 : Fin 3); omega
    | ⟨1, _⟩ => show win0_3.index t (1 : Fin 3) * 1024 + 1 * n.val = win0_6.index t (1 : Fin 3) * 1024 + n.val; omega
    | ⟨2, _⟩ => show win0_3.index t (2 : Fin 3) * 128 + 1 * d.val = d.val; omega
  have h17 : ∀ (k : Fin 256) (d : Fin 128), iblk m c 4 t (ix2 k d) = (m ((c : Thread nD τ).loc main_arg3)) (ix2 d k) := fun k d => by
    show V m c main_v0 (((cfg0.win 4).blk t).view.emb (ix2 k d)) = _
    refine Eq.trans (congrArg _ (funext fun a => Fin.ext ?_)) (V_main_v0_apply m c k d)
    match a with
    | ⟨0, _⟩ => show win0_4.index t (0 : Fin 2) * 256 + 1 * k.val = k.val; omega
    | ⟨1, _⟩ => show win0_4.index t (1 : Fin 2) * 128 + 1 * d.val = d.val; omega
  have h21 : ∀ (d : Fin 128), iblk m c 5 t (ix2 (0 : Fin 1) d) = (m ((c : Thread nD τ).loc main_arg4)) (ix1 d) := fun d => by
    show V m c main_v1 (((cfg0.win 5).blk t).view.emb (ix2 (0 : Fin 1) d)) = _
    refine Eq.trans (congrArg _ (funext fun a => Fin.ext ?_)) (V_main_v1_apply m c 0 d)
    match a with
    | ⟨0, _⟩ => show win0_5.index t (0 : Fin 2) * 1 + 1 * 0 = 0; omega
    | ⟨1, _⟩ => show win0_5.index t (1 : Fin 2) * 128 + 1 * d.val = d.val; omega
  refine (Cert.Gnn.pay_eq (m ((c : Thread nD τ).loc main_arg0)) (m ((c : Thread nD τ).loc main_arg1)) (m ((c : Thread nD τ).loc main_arg2)) (m ((c : Thread nD τ).loc main_arg3)) (m ((c : Thread nD τ).loc main_arg4))
    (iblk m c 0 t) (iblk m c 1 t) (iblk m c 2 t) (iblk m c 3 t) (iblk m c 4 t) (iblk m c 5 t) bb row h0 h2 h4 h6 h17 h21 n d).trans ?_
  show G m c (ix3 bb (row n) d) = G m c (((cfg0.win 6).blk t).view.emb (ix3 (0 : Fin 1) n d))
  refine congrArg _ (funext fun a => Fin.ext ?_)
  match a with
  | ⟨0, _⟩ => show win0_6.index t (0 : Fin 3) = win0_6.index t (0 : Fin 3) * 1 + 1 * 0; omega
  | ⟨1, _⟩ => show win0_6.index t (1 : Fin 3) * 1024 + n.val = win0_6.index t (1 : Fin 3) * 1024 + 1 * n.val; omega
  | ⟨2, _⟩ => show d.val = win0_6.index t (2 : Fin 3) * 128 + 1 * d.val; omega

/-- An index of the result array is in point `t`'s block iff each coordinate is in the block's range on its axis. -/
theorem mem_blk (t : Fin cfg0.N) (i : S8x2048x128.Idx) :
    i ∈ ((cfg0.win 6).blk t).view.set ↔ ∀ a : Fin 3, win0_6.index t a * S1x1024x128.size a ≤ (i a).val ∧ (i a).val < win0_6.index t a * S1x1024x128.size a + S1x1024x128.size a := by
  show i ∈ ((View.whole main_v2).slice (win0_6.rect t)).set ↔ _
  rw [View.set_slice_whole, Rect.mem_set_unit]
  exact Iff.rfl

/-- The sixteen output blocks cover the result array: row r of batch b is in the block of point (b, r / 1024). -/
theorem cover (i : S8x2048x128.Idx) :
    ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 128 := (i 2).isLt
  obtain ⟨t, ht⟩ := idx_onto ⟨(i 0).val, hi0⟩ ⟨(i 1).val / 1024, by omega⟩
  have q0 : win0_6.index t (0 : Fin 3) = (i 0).val := congrFun ht 0
  have q1 : win0_6.index t (1 : Fin 3) = (i 1).val / 1024 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 128 ≤ (i 2).val ∧ (i 2).val < win0_6.index t (2 : Fin 3) * 128 + 128; omega

/-- The result array after the run is `G` of the arguments. -/
theorem final (c : Dev nD) : (dats m 0 c).arrAt 6 cfg0.N = G m c :=
  (dats m 0 c).arrAt_eq_of_cover 6 (G m c) (fun t _ => flushed_eq m c t) (cover)

/-- The run, read: the result array at `G` of the arguments, the arguments unchanged. -/
theorem run : θ_run defs (onTc (τ := τ) (main (F := Ideal))) ⟨m, fun _ => 0, ρ⟩ fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h c).1 6).trans (final m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (Pipeline.mem_restRefs_of main_arg3 rfl (by decide))).trans (V_main_arg3 m c),
      ((h c).2 main_arg4 (Pipeline.mem_restRefs_of main_arg4 rfl (by decide))).trans (V_main_arg4 m c)⟩) (run_main m ρ)

end Cert.KernelIdeal.Hand

end
-- ==== Proof.lean ====
/-
  The certificate of the message-passing kernel against its reference.

  The kernel, per batch b and half h of the 2048 nodes, reads the adjacency rows and the cost columns of the half's
  1024 nodes, all 2048 embedding rows of the batch and the half's own 1024 embedding rows, and writes, for node n and
  output feature d, the larger of zero and Σ_k cat(n, k) · W(d, k) + bias(d), where cat(n, ·) is the node's 128 own
  features followed by its 128 neighbour features Σ_i cost(i, n) · emb(i, e) / Σ_j adj(n, j). The reference computes
  the same expression for all nodes at once, with the same order of factors and the same division; a sum over an
  index set is the same extended real however the set is walked, so the two results agree element by element with no
  appeal to finiteness of the inputs.

  The three frames: the kernel's two programs (as printed and idealized) run through one pipelined region whose
  embeddings array is read through two windows (KFrame, KIFrame over LibFrameShared); the reference is a straight line
  of host operations (its generated run). The idealization rewrote nothing, so it is sanctioned trivially. The
  algebraic claim puts the kernel's run, read as one function of the arguments (KIValue), beside the reference's run.
-/
import proofs.«150982_j23665269801224_1_alg».proof.Defs
import proofs.«150982_j23665269801224_1_alg».proof.Proof.Gen.Kernel
import proofs.«150982_j23665269801224_1_alg».proof.Proof.Gen.KernelIdeal
import proofs.«150982_j23665269801224_1_alg».proof.Proof.Gen.ReferenceIdeal
import proofs.«150982_j23665269801224_1_alg».proof.Proof.Gen.ReferenceIdeal.Run
import proofs.«150982_j23665269801224_1_alg».proof.Proof.Gen.ReferenceIdeal.Read
import proofs.«150982_j23665269801224_1_alg».proof.Proof.Gen.Pre_finite_inputs
import proofs.«150982_j23665269801224_1_alg».proof.Proof.KFrame
import proofs.«150982_j23665269801224_1_alg».proof.Proof.KIValue
import Idealize.ShloMosaic.Adequacy
import Idealize.ShloMosaic.Init

noncomputable section

namespace Cert.Proof

open Idealize.ShloMosaic Idealize.SL.Sem

/-- The printed kernel runs to the end, faults nowhere and leaves its five arguments unchanged. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array at the same function of the same arguments. -/
theorem algebraic : Cert.algebraic_KernelIdeal_ReferenceIdeal := by
  intro m ρ m' ρ' _ hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
